-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  main_v23

def fn {F : FTy → Type} [FloatOps F] (main_arg0 : FVec F S4x8192x1024 .f32) (main_arg1 : FVec F S1024 .f32) (main_arg2 : FVec F S1024x1024 .f32) (main_arg3 : FVec F S1024x128 .f32) (main_arg4 : FVec F S1024x128 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S32768x1024 : Shape := ⟨2, ![32768, 1024]⟩
abbrev S_ : Shape := ⟨0, ![]⟩
abbrev S1024x1 : Shape := ⟨2, ![1024, 1]⟩
abbrev S1024x1280 : Shape := ⟨2, ![1024, 1280]⟩
abbrev S32768x128 : Shape := ⟨2, ![32768, 128]⟩
abbrev S2048x1024 : Shape := ⟨2, ![2048, 1024]⟩
abbrev S2048x128 : Shape := ⟨2, ![2048, 128]⟩
abbrev S512x1024 : Shape := ⟨2, ![512, 1024]⟩
abbrev S512 : Shape := ⟨1, ![512]⟩
abbrev S512x1 : Shape := ⟨2, ![512, 1]⟩
abbrev S512x1280 : Shape := ⟨2, ![512, 1280]⟩
abbrev S512x128 : Shape := ⟨2, ![512, 128]⟩
abbrev S4x8192x16x64 : Shape := ⟨4, ![4, 8192, 16, 64]⟩
abbrev S4x8192x2x64 : Shape := ⟨4, ![4, 8192, 2, 64]⟩

abbrev nBuf : Space → Nat
  | .hbm => 26
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S32768x1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024x1, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1024x1280, .bf16⟩
  | .hbm, ⟨20, _⟩ => ⟨S32768x1024, .f32⟩
  | .hbm, ⟨21, _⟩ => ⟨S32768x128, .f32⟩
  | .hbm, ⟨22, _⟩ => ⟨S32768x128, .f32⟩
  | .hbm, ⟨23, _⟩ => ⟨S4x8192x16x64, .f32⟩
  | .hbm, ⟨24, _⟩ => ⟨S4x8192x2x64, .f32⟩
  | .hbm, ⟨25, _⟩ => ⟨S4x8192x2x64, .f32⟩
  | .local _ .vmem, ⟨0, _⟩ => ⟨S2048x1024, .f32⟩
  | .local _ .vmem, ⟨1, _⟩ => ⟨S2048x1024, .f32⟩
  | .local _ .vmem, ⟨2, _⟩ => ⟨S1024x1280, .bf16⟩
  | .local _ .vmem, ⟨3, _⟩ => ⟨S2048x1024, .f32⟩
  | .local _ .vmem, ⟨4, _⟩ => ⟨S2048x1024, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x8192x1024_S32768x1024 : S4x8192x1024.ShapeCasts S32768x1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bitsLt_bf16_f32 : FTy.bits .bf16 < FTy.bits .f32
  bcast_S1024x1_S1024x128_0_1 : S1024x1.BroadcastsInDim S1024x128 (![0, 1] : Fin 2 → Fin S1024x128.rank)
  concatenates_S1024x1024_S1024x128_S1024x128_S1024x1280_d1 : Shape.Concatenates [S1024x1024, S1024x128, S1024x128] S1024x1280 1
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  slices_S512x1280_o0_0_S512x1024 : S512x1280.Slices ![0, 0] S512x1024
  slices_S512x1280_o0_1024_S512x128 : S512x1280.Slices ![0, 1024] S512x128
  inb_S2048x128_S512x128_0_0 : ∀ a, (![0, 0] : Fin 2 → Nat) a + S512x128.size a ≤ S2048x128.size a
  h_S512x128 : 0 < S512x128.numel
  slices_S512x1280_o0_1152_S512x128 : S512x1280.Slices ![0, 1152] S512x128
  inb_S2048x1024_S512x1024_512_0 : ∀ a, (![512, 0] : Fin 2 → Nat) a + S512x1024.size a ≤ S2048x1024.size a
  inb_S2048x128_S512x128_512_0 : ∀ a, (![512, 0] : Fin 2 → Nat) a + S512x128.size a ≤ S2048x128.size a
  inb_S2048x1024_S512x1024_1024_0 : ∀ a, (![1024, 0] : Fin 2 → Nat) a + S512x1024.size a ≤ S2048x1024.size a
  inb_S2048x128_S512x128_1024_0 : ∀ a, (![1024, 0] : Fin 2 → Nat) a + S512x128.size a ≤ S2048x128.size a
  inb_S2048x1024_S512x1024_1536_0 : ∀ a, (![1536, 0] : Fin 2 → Nat) a + S512x1024.size a ≤ S2048x1024.size a
  inb_S2048x128_S512x128_1536_0 : ∀ a, (![1536, 0] : Fin 2 → Nat) a + S512x128.size a ≤ S2048x128.size a
  shapeCasts_S32768x1024_S4x8192x16x64 : S32768x1024.ShapeCasts S4x8192x16x64
  shapeCasts_S32768x128_S4x8192x2x64 : S32768x128.ShapeCasts S4x8192x2x64
  dot_S512x1024_S1024x1280_S512x1280_1_0_0_1_n_n_wf : DotDims.WF S512x1024 S1024x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S1024x1280.size a
  hwx0_1 : ∀ i : grid0.Coords, EltTy.bits .bf16 = 32 ∨ (Rect.block (s := S1024x1280) S1024x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S32768x128.size a
  hwx0_3 : ∀ i : grid0.Coords, EltTy.bits .f32 = 32 ∨ (Rect.block (s := S32768x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S32768x128.size a
  hwx0_4 : ∀ i : grid0.Coords, EltTy.bits .f32 = 32 ∨ (Rect.block (s := S32768x128) S2048x128.size (cc0_transform_4 i) (hinb0_4 i)).WholeWords (EltTy.packing .f32)

variable [Facts₀]

def dot_S512x1024_S1024x1280_S512x1280_1_0_0_1_n_n : DotDims S512x1024 S1024x1280 S512x1280 where
  lhsContracting := [1]
  rhsContracting := [0]
  lhsNonContracting := [0]
  rhsNonContracting := [1]
  lhsBatch := []
  rhsBatch := []
  wf := dot_S512x1024_S1024x1280_S512x1280_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S2048x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x128 : Shape := ⟨3, ![4, 8192, 128]⟩
abbrev S4x8192x16x64 : Shape := ⟨4, ![4, 8192, 16, 64]⟩
abbrev S4x8192x2x64 : Shape := ⟨4, ![4, 8192, 2, 64]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x128, .f32⟩
  | .hbm, ⟨26, _⟩ => ⟨S4x8192x128, .f32⟩
  | .hbm, ⟨27, _⟩ => ⟨S4x8192x16x64, .f32⟩
  | .hbm, ⟨28, _⟩ => ⟨S4x8192x2x64, .f32⟩
  | .hbm, ⟨29, _⟩ => ⟨S4x8192x2x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  shapeCasts_S4x8192x1024_S4x8192x16x64 : S4x8192x1024.ShapeCasts S4x8192x16x64
  shapeCasts_S4x8192x128_S4x8192x2x64 : S4x8192x128.ShapeCasts S4x8192x2x64
  dot_S4x8192x1024_S1024x1024_S4x8192x1024_2_0_01_1_n_n_wf : DotDims.WF S4x8192x1024 S1024x1024 S4x8192x1024 [2] [0] [0, 1] [1] [] []
  dot_S4x8192x1024_S1024x128_S4x8192x128_2_0_01_1_n_n_wf : DotDims.WF S4x8192x1024 S1024x128 S4x8192x128 [2] [0] [0, 1] [1] [] []

variable [Facts₀]

def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf
def dot_S4x8192x1024_S1024x128_S4x8192x128_2_0_01_1_n_n : DotDims S4x8192x1024 S1024x128 S4x8192x128 where
  lhsContracting := [2]
  rhsContracting := [0]
  lhsNonContracting := [0, 1]
  rhsNonContracting := [1]
  lhsBatch := []
  rhsBatch := []
  wf := dot_S4x8192x1024_S1024x128_S4x8192x128_2_0_01_1_n_n_wf

class Facts : Prop extends Facts₀ where

variable [Facts]
-- ==== Proof.KernelAround.lean ====
/-
  The program around its one pipelined region. The host lines before the region scale the three weight matrices by
  (1 + ln_weight) along the contracted axis and lay them side by side in one 1024 x 1280 matrix; the region's grid
  has 16 points, each handling 2048 rows of the flattened input; the host lines after it only reshape the three
  results. This module states what the region finds in each array on entry, that the five argument arrays are
  written by no host line on either side of the region, each window's block at a grid point, the rectangles through
  which the body reads and writes its staging buffers, and what the body leaves in each of the three output
  buffers as a function of the two input blocks: four row chunks of 512 rows each, written one after the other.
-/
import proofs.«146387_j8203387535387_2_alg».proof.Proof.Gen.Kernel.Launch
import proofs.«146387_j8203387535387_2_alg».proof.Proof.Gen.Kernel.Skeleton
import proofs.«146387_j8203387535387_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents on core `c` when the region is entered: the launch memory after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (when it was not, the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (when it was not, the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- The whole weight block. -/
abbrev rw0 : Rect S1024x1280 := Rect.unit (s := S1024x1280) ![0, 0] S1024x1280.size inb_S1024x1280_S1024x1280_0_0
/-- Rows 0 to 511 of a 2048 x 1024 buffer. -/
abbrev ra0 : Rect S2048x1024 := Rect.unit (s := S2048x1024) ![0, 0] S512x1024.size inb_S2048x1024_S512x1024_0_0
/-- Rows 0 to 511 of a 2048 x 128 buffer. -/
abbrev rb0 : Rect S2048x128 := Rect.unit (s := S2048x128) ![0, 0] S512x128.size inb_S2048x128_S512x128_0_0
/-- Rows 512 to 1023 of a 2048 x 1024 buffer. -/
abbrev ra512 : Rect S2048x1024 := Rect.unit (s := S2048x1024) ![512, 0] S512x1024.size inb_S2048x1024_S512x1024_512_0
/-- Rows 512 to 1023 of a 2048 x 128 buffer. -/
abbrev rb512 : Rect S2048x128 := Rect.unit (s := S2048x128) ![512, 0] S512x128.size inb_S2048x128_S512x128_512_0
/-- Rows 1024 to 1535 of a 2048 x 1024 buffer. -/
abbrev ra1024 : Rect S2048x1024 := Rect.unit (s := S2048x1024) ![1024, 0] S512x1024.size inb_S2048x1024_S512x1024_1024_0
/-- Rows 1024 to 1535 of a 2048 x 128 buffer. -/
abbrev rb1024 : Rect S2048x128 := Rect.unit (s := S2048x128) ![1024, 0] S512x128.size inb_S2048x128_S512x128_1024_0
/-- Rows 1536 to 2047 of a 2048 x 1024 buffer. -/
abbrev ra1536 : Rect S2048x1024 := Rect.unit (s := S2048x1024) ![1536, 0] S512x1024.size inb_S2048x1024_S512x1024_1536_0
/-- Rows 1536 to 2047 of a 2048 x 128 buffer. -/
abbrev rb1536 : Rect S2048x128 := Rect.unit (s := S2048x128) ![1536, 0] S512x128.size inb_S2048x128_S512x128_1536_0

/-! ## What the body leaves in each output buffer

Each of the four row chunks is normalised and multiplied into the whole weight block, and the 1280 result columns are
cut into the three outputs (columns 0..1023, 1024..1151, 1152..1279). The pieces are listed last store first. -/

/-- The first output's buffer after the body, from the input block `x0` and the weight block `x1`. -/
def out0_2 (x0 : Vec F S2048x1024 .f32) (x1 : Vec F S1024x1280 .bf16) : Vec F S2048x1024 .f32 :=
  View.canon [⟨ra1536, k0_pay2 (k0_pay5 (View.ld x1 rw0)) (k0_pay18 (View.ld x0 ra1536)) (k0_pay19 (View.ld x0 ra1536)) k0_pay20⟩,
    ⟨ra1024, k0_pay15 (k0_pay5 (View.ld x1 rw0)) (View.ld x0 ra1024)⟩,
    ⟨ra512, k0_pay11 (k0_pay10 (View.ld x1 rw0) (View.ld x0 ra512))⟩,
    ⟨ra0, k0_pay7 (View.ld x1 rw0) (View.ld x0 ra0)⟩]

/-- The second output's buffer after the body. -/
def out0_3 (x0 : Vec F S2048x1024 .f32) (x1 : Vec F S1024x1280 .bf16) : Vec F S2048x128 .f32 :=
  View.canon [⟨rb1536, k0_pay3 (k0_pay5 (View.ld x1 rw0)) (k0_pay18 (View.ld x0 ra1536)) (k0_pay19 (View.ld x0 ra1536)) k0_pay20⟩,
    ⟨rb1024, k0_pay16 (k0_pay5 (View.ld x1 rw0)) (View.ld x0 ra1024)⟩,
    ⟨rb512, k0_pay12 (k0_pay10 (View.ld x1 rw0) (View.ld x0 ra512))⟩,
    ⟨rb0, k0_pay8 (View.ld x1 rw0) (View.ld x0 ra0)⟩]

/-- The third output's buffer after the body. -/
def out0_4 (x0 : Vec F S2048x1024 .f32) (x1 : Vec F S1024x1280 .bf16) : Vec F S2048x128 .f32 :=
  View.canon [⟨rb1536, k0_pay4 (k0_pay5 (View.ld x1 rw0)) (k0_pay18 (View.ld x0 ra1536)) (k0_pay19 (View.ld x0 ra1536)) k0_pay20⟩,
    ⟨rb1024, k0_pay17 (k0_pay5 (View.ld x1 rw0)) (View.ld x0 ra1024)⟩,
    ⟨rb512, k0_pay13 (k0_pay10 (View.ld x1 rw0) (View.ld x0 ra512))⟩,
    ⟨rb0, k0_pay9 (View.ld x1 rw0) (View.ld x0 ra0)⟩]

/-- Four chunks of 512 rows tile a 2048 x 1024 buffer. -/
theorem cover_a (p3 p2 p1 p0 : Vec F S512x1024 .f32) (y : S2048x1024.Idx) :
    ∃ pc ∈ ([⟨ra1536, p3⟩, ⟨ra1024, p2⟩, ⟨ra512, p1⟩, ⟨ra0, p0⟩] : List (View.Piece (Elt F) S2048x1024 .f32)), y ∈ pc.1.set :=
  View.cover_of_tiled [⟨ra1536, p3⟩, ⟨ra1024, p2⟩, ⟨ra512, p1⟩, ⟨ra0, p0⟩] S512x1024.size (by rfl) y

/-- Four chunks of 512 rows tile a 2048 x 128 buffer. -/
theorem cover_b (p3 p2 p1 p0 : Vec F S512x128 .f32) (y : S2048x128.Idx) :
    ∃ pc ∈ ([⟨rb1536, p3⟩, ⟨rb1024, p2⟩, ⟨rb512, p1⟩, ⟨rb0, p0⟩] : List (View.Piece (Elt F) S2048x128 .f32)), y ∈ pc.1.set :=
  View.cover_of_tiled [⟨rb1536, p3⟩, ⟨rb1024, p2⟩, ⟨rb512, p1⟩, ⟨rb0, p0⟩] S512x128.size (by rfl) y

end Cert.Kernel.Around

end
-- ==== Proof.KernelBody.lean ====
/-
  The kernel body run once on symbolic staging buffers: with the two input buffers held at given contents and the
  three output buffers held at anything, the body runs to its return leaving the inputs as they were and each
  output buffer at its four row chunks written over whatever it held.
-/
import proofs.«146387_j8203387535387_2_alg».proof.Proof.KernelAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple. The outputs' earlier contents are read by the body (a load precedes each store) but the
    loaded values are used nowhere, so they do not appear in what the body leaves. -/
theorem sound_kernel (c : Dev nD) (E : Set ℕ) (i : grid0.Coords)
    (arg1 : Memref sig .tc .vmem S2048x1024 .f32) (harg1 : arg1.IsWhole) (arg2 : Memref sig .tc .vmem S1024x1280 .bf16) (harg2 : arg2.IsWhole)
    (arg3 : Memref sig .tc .vmem S2048x1024 .f32) (harg3 : arg3.IsWhole) (arg4 : Memref sig .tc .vmem S2048x128 .f32) (harg4 : arg4.IsWhole)
    (arg5 : Memref sig .tc .vmem S2048x128 .f32) (harg5 : arg5.IsWhole)
    (x0 : Vec F S2048x1024 .f32) (x1 : Vec F S1024x1280 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__ln_qkv_kernel i arg1 harg1 arg2 harg2 arg3 harg3 arg4 harg4 arg5 harg5) K := by
  simp only [cc0__ln_qkv_kernel_eq_skeleton]; unfold cc0__ln_qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_a _ _ _ _)
  isplitl [H3]
  · iexists _; isplitr
    swap; · iexact H3
    ipureintro
    exact View.read_writes_eq_canon _ _ _ (cover_b _ _ _ _)
  iexists _; isplitr
  swap; · iexact H4
  ipureintro
  exact View.read_writes_eq_canon _ _ _ (cover_b _ _ _ _)

end Cert.Kernel.Around

end
-- ==== Proof.KernelFrame.lean ====
/-
  The run of the whole program. The proof data of the one pipeline: each array as the region finds it; after the
  body at a grid point the two input buffers at their blocks and the three output buffers at the body's four row
  chunks of those blocks; nothing carried from one point to the next. From the body's triple at a generic point
  the launch gives the run: the program terminates without a fault, each output array ends at what the body left
  block by block, every other buffer at what the host lines after the region make of it, and the five argument
  arrays end as they were launched.
-/
import proofs.«146387_j8203387535387_2_alg».proof.Proof.KernelBody
import proofs.«146387_j8203387535387_2_alg».proof.Defs

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: from any memory with zero counters every weakly fair execution of the program terminates, each array of the
    pipeline ends at what the proof data give and every other buffer at what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The five argument arrays end as launched. -/
theorem kept (c : Dev nD) (r : PUnit × MemSt nD τ sig (Elt F))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c)⟩

/-- The frame: the program runs to its end without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m c r h) (run_main m ρ)

end Cert.Kernel.Around

end
-- ==== Proof.KernelIdealAround.lean ====
/-
  The program around its one pipelined region. The host lines before the region scale the three weight matrices by
  (1 + ln_weight) along the contracted axis and lay them side by side in one 1024 x 1280 matrix; the region's grid
  has 16 points, each handling 2048 rows of the flattened input; the host lines after it only reshape the three
  results. This module states what the region finds in each array on entry, that the five argument arrays are
  written by no host line on either side of the region, each window's block at a grid point, the rectangles through
  which the body reads and writes its staging buffers, and what the body leaves in each of the three output
  buffers as a function of the two input blocks: four row chunks of 512 rows each, written one after the other.
-/
import proofs.«146387_j8203387535387_2_alg».proof.Proof.Gen.KernelIdeal.Launch
import proofs.«146387_j8203387535387_2_alg».proof.Proof.Gen.KernelIdeal.Skeleton
import proofs.«146387_j8203387535387_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents on core `c` when the region is entered: the launch memory after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (when it was not, the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (when it was not, the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- The whole weight block. -/
abbrev rw0 : Rect S1024x1280 := Rect.unit (s := S1024x1280) ![0, 0] S1024x1280.size inb_S1024x1280_S1024x1280_0_0
/-- Rows 0 to 511 of a 2048 x 1024 buffer. -/
abbrev ra0 : Rect S2048x1024 := Rect.unit (s := S2048x1024) ![0, 0] S512x1024.size inb_S2048x1024_S512x1024_0_0
/-- Rows 0 to 511 of a 2048 x 128 buffer. -/
abbrev rb0 : Rect S2048x128 := Rect.unit (s := S2048x128) ![0, 0] S512x128.size inb_S2048x128_S512x128_0_0
/-- Rows 512 to 1023 of a 2048 x 1024 buffer. -/
abbrev ra512 : Rect S2048x1024 := Rect.unit (s := S2048x1024) ![512, 0] S512x1024.size inb_S2048x1024_S512x1024_512_0
/-- Rows 512 to 1023 of a 2048 x 128 buffer. -/
abbrev rb512 : Rect S2048x128 := Rect.unit (s := S2048x128) ![512, 0] S512x128.size inb_S2048x128_S512x128_512_0
/-- Rows 1024 to 1535 of a 2048 x 1024 buffer. -/
abbrev ra1024 : Rect S2048x1024 := Rect.unit (s := S2048x1024) ![1024, 0] S512x1024.size inb_S2048x1024_S512x1024_1024_0
/-- Rows 1024 to 1535 of a 2048 x 128 buffer. -/
abbrev rb1024 : Rect S2048x128 := Rect.unit (s := S2048x128) ![1024, 0] S512x128.size inb_S2048x128_S512x128_1024_0
/-- Rows 1536 to 2047 of a 2048 x 1024 buffer. -/
abbrev ra1536 : Rect S2048x1024 := Rect.unit (s := S2048x1024) ![1536, 0] S512x1024.size inb_S2048x1024_S512x1024_1536_0
/-- Rows 1536 to 2047 of a 2048 x 128 buffer. -/
abbrev rb1536 : Rect S2048x128 := Rect.unit (s := S2048x128) ![1536, 0] S512x128.size inb_S2048x128_S512x128_1536_0

/-! ## What the body leaves in each output buffer

Each of the four row chunks is normalised and multiplied into the whole weight block, and the 1280 result columns are
cut into the three outputs (columns 0..1023, 1024..1151, 1152..1279). The pieces are listed last store first. -/

/-- The first output's buffer after the body, from the input block `x0` and the weight block `x1`. -/
def out0_2 (x0 : Vec F S2048x1024 .f32) (x1 : Vec F S1024x1280 .bf16) : Vec F S2048x1024 .f32 :=
  View.canon [⟨ra1536, k0_pay2 (k0_pay5 (View.ld x1 rw0)) (k0_pay18 (View.ld x0 ra1536)) (k0_pay19 (View.ld x0 ra1536)) k0_pay20⟩,
    ⟨ra1024, k0_pay15 (k0_pay5 (View.ld x1 rw0)) (View.ld x0 ra1024)⟩,
    ⟨ra512, k0_pay11 (k0_pay10 (View.ld x1 rw0) (View.ld x0 ra512))⟩,
    ⟨ra0, k0_pay7 (View.ld x1 rw0) (View.ld x0 ra0)⟩]

/-- The second output's buffer after the body. -/
def out0_3 (x0 : Vec F S2048x1024 .f32) (x1 : Vec F S1024x1280 .bf16) : Vec F S2048x128 .f32 :=
  View.canon [⟨rb1536, k0_pay3 (k0_pay5 (View.ld x1 rw0)) (k0_pay18 (View.ld x0 ra1536)) (k0_pay19 (View.ld x0 ra1536)) k0_pay20⟩,
    ⟨rb1024, k0_pay16 (k0_pay5 (View.ld x1 rw0)) (View.ld x0 ra1024)⟩,
    ⟨rb512, k0_pay12 (k0_pay10 (View.ld x1 rw0) (View.ld x0 ra512))⟩,
    ⟨rb0, k0_pay8 (View.ld x1 rw0) (View.ld x0 ra0)⟩]

/-- The third output's buffer after the body. -/
def out0_4 (x0 : Vec F S2048x1024 .f32) (x1 : Vec F S1024x1280 .bf16) : Vec F S2048x128 .f32 :=
  View.canon [⟨rb1536, k0_pay4 (k0_pay5 (View.ld x1 rw0)) (k0_pay18 (View.ld x0 ra1536)) (k0_pay19 (View.ld x0 ra1536)) k0_pay20⟩,
    ⟨rb1024, k0_pay17 (k0_pay5 (View.ld x1 rw0)) (View.ld x0 ra1024)⟩,
    ⟨rb512, k0_pay13 (k0_pay10 (View.ld x1 rw0) (View.ld x0 ra512))⟩,
    ⟨rb0, k0_pay9 (View.ld x1 rw0) (View.ld x0 ra0)⟩]

/-- Four chunks of 512 rows tile a 2048 x 1024 buffer. -/
theorem cover_a (p3 p2 p1 p0 : Vec F S512x1024 .f32) (y : S2048x1024.Idx) :
    ∃ pc ∈ ([⟨ra1536, p3⟩, ⟨ra1024, p2⟩, ⟨ra512, p1⟩, ⟨ra0, p0⟩] : List (View.Piece (Elt F) S2048x1024 .f32)), y ∈ pc.1.set :=
  View.cover_of_tiled [⟨ra1536, p3⟩, ⟨ra1024, p2⟩, ⟨ra512, p1⟩, ⟨ra0, p0⟩] S512x1024.size (by rfl) y

/-- Four chunks of 512 rows tile a 2048 x 128 buffer. -/
theorem cover_b (p3 p2 p1 p0 : Vec F S512x128 .f32) (y : S2048x128.Idx) :
    ∃ pc ∈ ([⟨rb1536, p3⟩, ⟨rb1024, p2⟩, ⟨rb512, p1⟩, ⟨rb0, p0⟩] : List (View.Piece (Elt F) S2048x128 .f32)), y ∈ pc.1.set :=
  View.cover_of_tiled [⟨rb1536, p3⟩, ⟨rb1024, p2⟩, ⟨rb512, p1⟩, ⟨rb0, p0⟩] S512x128.size (by rfl) y

end Cert.KernelIdeal.Around

end
-- ==== Proof.KernelIdealBody.lean ====
/-
  The kernel body run once on symbolic staging buffers: with the two input buffers held at given contents and the
  three output buffers held at anything, the body runs to its return leaving the inputs as they were and each
  output buffer at its four row chunks written over whatever it held.
-/
import proofs.«146387_j8203387535387_2_alg».proof.Proof.KernelIdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple. The outputs' earlier contents are read by the body (a load precedes each store) but the
    loaded values are used nowhere, so they do not appear in what the body leaves. -/
theorem sound_kernel (c : Dev nD) (E : Set ℕ) (i : grid0.Coords)
    (arg1 : Memref sig .tc .vmem S2048x1024 .f32) (harg1 : arg1.IsWhole) (arg2 : Memref sig .tc .vmem S1024x1280 .bf16) (harg2 : arg2.IsWhole)
    (arg3 : Memref sig .tc .vmem S2048x1024 .f32) (harg3 : arg3.IsWhole) (arg4 : Memref sig .tc .vmem S2048x128 .f32) (harg4 : arg4.IsWhole)
    (arg5 : Memref sig .tc .vmem S2048x128 .f32) (harg5 : arg5.IsWhole)
    (x0 : Vec F S2048x1024 .f32) (x1 : Vec F S1024x1280 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__ln_qkv_kernel i arg1 harg1 arg2 harg2 arg3 harg3 arg4 harg4 arg5 harg5) K := by
  simp only [cc0__ln_qkv_kernel_eq_skeleton]; unfold cc0__ln_qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_a _ _ _ _)
  isplitl [H3]
  · iexists _; isplitr
    swap; · iexact H3
    ipureintro
    exact View.read_writes_eq_canon _ _ _ (cover_b _ _ _ _)
  iexists _; isplitr
  swap; · iexact H4
  ipureintro
  exact View.read_writes_eq_canon _ _ _ (cover_b _ _ _ _)

end Cert.KernelIdeal.Around

end
-- ==== Proof.KernelIdealFrame.lean ====
/-
  The run of the whole program. The proof data of the one pipeline: each array as the region finds it; after the
  body at a grid point the two input buffers at their blocks and the three output buffers at the body's four row
  chunks of those blocks; nothing carried from one point to the next. From the body's triple at a generic point
  the launch gives the run: the program terminates without a fault, each output array ends at what the body left
  block by block, every other buffer at what the host lines after the region make of it, and the five argument
  arrays end as they were launched.
-/
import proofs.«146387_j8203387535387_2_alg».proof.Proof.KernelIdealBody
import proofs.«146387_j8203387535387_2_alg».proof.Defs

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: from any memory with zero counters every weakly fair execution of the program terminates, each array of the
    pipeline ends at what the proof data give and every other buffer at what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The five argument arrays end as launched. -/
theorem kept (c : Dev nD) (r : PUnit × MemSt nD τ sig (Elt F))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c)⟩

/-- The frame: the program runs to its end without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m c r h) (run_main m ρ)

end Cert.KernelIdeal.Around

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.Spec.lean ====
/-
  The mathematics both programs compute. A token is a row of 1024 numbers; its scale is the reciprocal square root of
  the mean of its squares plus a small constant; the normalised row, with entry k further multiplied by (1 + ln k),
  is multiplied into a weight matrix. The kernel puts the factor (1 + ln k) on the weight, the reference on the
  row entry: over the extended reals multiplication is commutative and associative at every value, infinite ones
  included, so the two sums agree term by term and no finiteness is needed.
-/
import Idealize.ShloMosaic.Lib.ValueIdx
import Idealize.ShloMosaic.PureOps.Ideal.Laws

noncomputable section

open scoped BigOperators

namespace Cert.RmsProj

open Idealize.ShloMosaic Idealize.ShloMosaic.ValueIdx

/-- The scale of a row: (mean of squares + eps)^(-1/2), the mean as the sum divided by 1024, with the two
    constants as the float words both programs print. -/
def invRms (row : Fin 1024 → EReal) : EReal :=
  Ideal.rsqrt (Ideal.div (∑ k, row k * row k) (Ideal.ofBits .f32 0x44800000#32) + Ideal.ofBits .f32 0x358637BD#32)

/-- The factor of coordinate k: 1 + ln k, the 1 as the float word both programs print. -/
def gain (ln : Fin 1024 → EReal) (k : Fin 1024) : EReal := Ideal.ofBits .f32 0x3F800000#32 + ln k

/-- One output entry: row `row` against column j of a weight matrix given by its columns' entries `w k`. -/
def entry (row : Fin 1024 → EReal) (ln : Fin 1024 → EReal) (w : Fin 1024 → EReal) : EReal :=
  ∑ k, (row k * invRms row) * (w k * gain ln k)

/-- The same entry with the factor on the row's side, as the reference computes it. -/
theorem entry_eq (row : Fin 1024 → EReal) (ln : Fin 1024 → EReal) (w : Fin 1024 → EReal) :
    (∑ k, ((row k * invRms row) * gain ln k) * w k) = entry row ln w :=
  Finset.sum_congr rfl fun k _ => by rw [mul_assoc, mul_comm (gain ln k) (w k)]

/-- Row r of a matrix of rows of 1024 numbers, normalised by its own scale, against column c of a 1024 x 1280 matrix. -/
def projAt {R : Nat} (X : (⟨2, ![R, 1024]⟩ : Shape).Idx → EReal) (Wm : (⟨2, ![1024, 1280]⟩ : Shape).Idx → EReal)
    (r : Fin R) (c : Fin 1280) : EReal :=
  ∑ k : Fin 1024, (X (ix2 r k) * invRms (fun k => X (ix2 r k))) * Wm (ix2 k c)

/-- It depends only on that row and that column. -/
theorem projAt_congr {R R' : Nat} (X : (⟨2, ![R, 1024]⟩ : Shape).Idx → EReal) (X' : (⟨2, ![R', 1024]⟩ : Shape).Idx → EReal)
    (Wm Wm' : (⟨2, ![1024, 1280]⟩ : Shape).Idx → EReal) (r : Fin R) (r' : Fin R') (c c' : Fin 1280)
    (hX : ∀ k, X' (ix2 r' k) = X (ix2 r k)) (hW : ∀ k, Wm' (ix2 k c') = Wm (ix2 k c)) :
    projAt X' Wm' r' c' = projAt X Wm r c := by
  unfold projAt
  have e : (fun k => X' (ix2 r' k)) = fun k => X (ix2 r k) := funext hX
  rw [e]
  exact Finset.sum_congr rfl fun k _ => by rw [hX k, hW k]

/-- With the weight column the kernel builds, w k · (1 + ln k), it is the entry. -/
theorem projAt_eq_entry {R : Nat} (X : (⟨2, ![R, 1024]⟩ : Shape).Idx → EReal) (Wm : (⟨2, ![1024, 1280]⟩ : Shape).Idx → EReal)
    (r : Fin R) (c : Fin 1280) (row ln w : Fin 1024 → EReal) (hrow : ∀ k, X (ix2 r k) = row k)
    (hw : ∀ k, Wm (ix2 k c) = w k * gain ln k) : projAt X Wm r c = entry row ln w := by
  unfold projAt entry
  have e : (fun k => X (ix2 r k)) = row := funext hrow
  rw [e]
  exact Finset.sum_congr rfl fun k _ => by rw [hrow k, hw k]

/-- The result array of one projection with H heads of 64 columns: output (b, s, h, d) is token (b, s) against column
    64 h + d of the weight matrix. -/
def result (H D : Nat) (hD : H * 64 = D) (x : (⟨3, ![4, 8192, 1024]⟩ : Shape).Idx → EReal) (ln : (⟨1, ![1024]⟩ : Shape).Idx → EReal)
    (w : (⟨2, ![1024, D]⟩ : Shape).Idx → EReal) : (⟨4, ![4, 8192, H, 64]⟩ : Shape).Idx → EReal := fun i =>
  entry (fun k => x (ix3 (⟨(i 0).val, (i 0).isLt⟩ : Fin 4) (⟨(i 1).val, (i 1).isLt⟩ : Fin 8192) k)) (fun k => ln (ix1 k))
    (fun k => w (ix2 k (⟨(i 2).val * 64 + (i 3).val, by
      have h2 : (i 2).val < H := (i 2).isLt
      have h3 : (i 3).val < 64 := (i 3).isLt
      omega⟩ : Fin D)))

end Cert.RmsProj

end
-- ==== Proof.KernelIdealPayload.lean ====
/-
  One row chunk of the kernel body at an index. A chunk is 512 rows; entry (p, q) of its 512 x 1280 product is the sum
  over k of the normalised row entry (p, k) times the weight entry (k, q), the scale of row p taken from that row alone.
-/
import proofs.«146387_j8203387535387_2_alg».proof.Proof.Gen.KernelIdeal.Skeleton
import proofs.«146387_j8203387535387_2_alg».proof.Proof.LibPlainDot
import proofs.«146387_j8203387535387_2_alg».proof.Proof.LibKeepdims
import proofs.«146387_j8203387535387_2_alg».proof.Proof.Spec
import Idealize.ShloMosaic.Lib.Pipeline.Value

noncomputable section

open scoped BigOperators

namespace Cert.KernelIdeal.Payload

open Cert.KernelIdeal Cert.KernelIdeal.Gen Cert.RmsProj
open Idealize.ShloMosaic Idealize.ShloMosaic.ValueIdx

/-- The chunk's product at (p, q). -/
theorem chunk_apply (wb : Vec Ideal S1024x1280 .bf16) (xb : Vec Ideal S512x1024 .f32) (p : Fin 512) (q : Fin 1280) :
    k0_pay6 (F := Ideal) wb xb (ix2 p q) = ∑ k : Fin 1024, (xb (ix2 p k) * invRms (fun k => xb (ix2 p k))) * wb (ix2 k q) := by
  unfold k0_pay6 k0_pay5
  refine (PlainDot.matmul_zero_apply 512 1024 1280 none _ _ p q).trans ?_
  refine Finset.sum_congr rfl fun k _ => ?_
  simp only [shapeCast_self]
  show xb (ix2 p k) * broadcastTo S512x1024 _ broadcasts_S512x1_S512x1024 (ix2 p k) * wb (ix2 k q) = _
  rw [Cert.LibKeepdims.broadcastTo_a1_ab_apply]
  refine congrArg (fun z => xb (ix2 p k) * z * wb (ix2 k q)) ?_
  show Ideal.rsqrt (Ideal.div (shapeCast S512x1 _ shapeCasts_S512_S512x1 (ix2 p (0 : Fin 1))) (Ideal.ofBits .f32 0x44800000#32)
    + Ideal.ofBits .f32 0x358637BD#32) = _
  rw [Cert.LibKeepdims.shapeCast_a_a1_apply]
  exact congrArg (fun z => Ideal.rsqrt (Ideal.div z (Ideal.ofBits .f32 0x44800000#32) + Ideal.ofBits .f32 0x358637BD#32))
    (Cert.LibKeepdims.rowSum_apply (a := 512) (b := 1024) (mulf xb xb) _ _ _ _ p)

end Cert.KernelIdeal.Payload

end
-- ==== Proof.KernelIdealBlock.lean ====
/-
  What the body leaves in an output buffer is, entry by entry, one function of the two input blocks: entry (r, c) is row
  r of the input block, normalised, against column (offset + c) of the weight block, whichever of the four row chunks
  r falls in.
-/
import proofs.«146387_j8203387535387_2_alg».proof.Proof.KernelIdealFrame
import proofs.«146387_j8203387535387_2_alg».proof.Proof.KernelIdealPayload

set_option maxRecDepth 16384

noncomputable section

open scoped BigOperators

namespace Cert.KernelIdeal.Around

open Cert.KernelIdeal Cert.KernelIdeal.Gen Cert.RmsProj Cert.KernelIdeal.Payload
open Idealize.ShloMosaic Idealize.ShloMosaic.ValueIdx

/-- One stored piece at (p, q): the chunk starting at row r0, columns o .. o + D - 1 of its product. -/
theorem piece_apply (x0 : Vec Ideal S2048x1024 .f32) (x1 : Vec Ideal S1024x1280 .bf16)
    (r0 : Nat) (inb : ∀ a, (![r0, 0] : Fin 2 → Nat) a + S512x1024.size a ≤ S2048x1024.size a)
    (o D : Nat) (hs : S512x1280.Slices ![0, o] ⟨2, ![512, D]⟩) (p : Fin 512) (q : Fin D) (hr : r0 + p.val < 2048) (hq : o + q.val < 1280) :
    extractStridedSlice ⟨2, ![512, D]⟩ ![0, o] (k0_pay6 (F := Ideal) (View.ld x1 rw0) (View.ld x0 (Rect.unit (s := S2048x1024) ![r0, 0] S512x1024.size inb))) hs (ix2 p q)
      = projAt x0 x1 ⟨r0 + p.val, hr⟩ ⟨o + q.val, hq⟩ := by
  refine (extractStridedSlice_apply _ _ hs (ix2 p q) (ix2 p ⟨o + q.val, hq⟩) (fun a => ?_)).trans ?_
  · match a with
    | ⟨0, _⟩ => show p.val = 0 + p.val; omega
    | ⟨1, _⟩ => rfl
  refine (chunk_apply _ _ p ⟨o + q.val, hq⟩).trans ?_
  refine projAt_congr (R := 2048) (R' := 512) x0 _ x1 _ ⟨r0 + p.val, hr⟩ p ⟨o + q.val, hq⟩ ⟨o + q.val, hq⟩ (fun k => ?_) (fun k => ?_)
  · exact congrArg x0 (funext fun a => Fin.ext (by
      match a with
      | ⟨0, _⟩ => show r0 + 1 * p.val = r0 + p.val; omega
      | ⟨1, _⟩ => show 0 + 1 * k.val = k.val; omega))
  · exact congrArg x1 (funext fun a => Fin.ext (by
      match a with
      | ⟨0, _⟩ => show 0 + 1 * k.val = k.val; omega
      | ⟨1, _⟩ => show 0 + 1 * (o + q.val) = o + q.val; omega))

/-- Entry (r, c) of an output of D columns starting at column o of the product: row r of the input block against
    column o + c of the weight block. -/
def blkFn (x0 : Vec Ideal S2048x1024 .f32) (x1 : Vec Ideal S1024x1280 .bf16) (o D : Nat) (hD : o + D ≤ 1280) :
    (⟨2, ![2048, D]⟩ : Shape).Idx → EReal := fun y =>
  projAt x0 x1 (⟨(y 0).val, (y 0).isLt⟩ : Fin 2048) (⟨o + (y 1).val, by have h : (y 1).val < D := (y 1).isLt; omega⟩ : Fin 1280)

/-- Output 1's buffer after the body is that function of the two input blocks. -/
theorem out0_2_eq (x0 : Vec Ideal S2048x1024 .f32) (x1 : Vec Ideal S1024x1280 .bf16) :
    out0_2 (F := Ideal) x0 x1 = blkFn x0 x1 0 1024 (by omega) := by
  funext y
  unfold out0_2
  refine View.canon_apply_of_pieces (Val := Elt Ideal) (blkFn x0 x1 0 1024 (by omega)) _ (fun pc hpc x => ?_) y (cover_a _ _ _ _ y)
  simp only [List.mem_cons, List.mem_nil_iff, or_false] at hpc
  rcases hpc with rfl | rfl | rfl | rfl
  · obtain ⟨p, q, rfl⟩ : ∃ (p : Fin 512) (q : Fin 1024), x = ix2 p q := ⟨x 0, x 1, eq_ix2 x⟩
    have hp := p.isLt
    have hq := q.isLt
    refine (piece_apply x0 x1 1536 inb_S2048x1024_S512x1024_1536_0 0 1024 slices_S512x1280_o0_0_S512x1024 p q (by omega) (by omega)).trans ?_
    refine congrArg₂ (projAt x0 x1) (Fin.ext ?_) (Fin.ext ?_)
    · show 1536 + p.val = 1536 + 1 * p.val; omega
    · show 0 + q.val = 0 + (0 + 1 * q.val); omega
  · obtain ⟨p, q, rfl⟩ : ∃ (p : Fin 512) (q : Fin 1024), x = ix2 p q := ⟨x 0, x 1, eq_ix2 x⟩
    have hp := p.isLt
    have hq := q.isLt
    refine (piece_apply x0 x1 1024 inb_S2048x1024_S512x1024_1024_0 0 1024 slices_S512x1280_o0_0_S512x1024 p q (by omega) (by omega)).trans ?_
    refine congrArg₂ (projAt x0 x1) (Fin.ext ?_) (Fin.ext ?_)
    · show 1024 + p.val = 1024 + 1 * p.val; omega
    · show 0 + q.val = 0 + (0 + 1 * q.val); omega
  · obtain ⟨p, q, rfl⟩ : ∃ (p : Fin 512) (q : Fin 1024), x = ix2 p q := ⟨x 0, x 1, eq_ix2 x⟩
    have hp := p.isLt
    have hq := q.isLt
    refine (piece_apply x0 x1 512 inb_S2048x1024_S512x1024_512_0 0 1024 slices_S512x1280_o0_0_S512x1024 p q (by omega) (by omega)).trans ?_
    refine congrArg₂ (projAt x0 x1) (Fin.ext ?_) (Fin.ext ?_)
    · show 512 + p.val = 512 + 1 * p.val; omega
    · show 0 + q.val = 0 + (0 + 1 * q.val); omega
  · obtain ⟨p, q, rfl⟩ : ∃ (p : Fin 512) (q : Fin 1024), x = ix2 p q := ⟨x 0, x 1, eq_ix2 x⟩
    have hp := p.isLt
    have hq := q.isLt
    refine (piece_apply x0 x1 0 inb_S2048x1024_S512x1024_0_0 0 1024 slices_S512x1280_o0_0_S512x1024 p q (by omega) (by omega)).trans ?_
    refine congrArg₂ (projAt x0 x1) (Fin.ext ?_) (Fin.ext ?_)
    · show 0 + p.val = 0 + 1 * p.val; omega
    · show 0 + q.val = 0 + (0 + 1 * q.val); omega

/-- Output 2's buffer after the body is that function of the two input blocks. -/
theorem out0_3_eq (x0 : Vec Ideal S2048x1024 .f32) (x1 : Vec Ideal S1024x1280 .bf16) :
    out0_3 (F := Ideal) x0 x1 = blkFn x0 x1 1024 128 (by omega) := by
  funext y
  unfold out0_3
  refine View.canon_apply_of_pieces (Val := Elt Ideal) (blkFn x0 x1 1024 128 (by omega)) _ (fun pc hpc x => ?_) y (cover_b _ _ _ _ y)
  simp only [List.mem_cons, List.mem_nil_iff, or_false] at hpc
  rcases hpc with rfl | rfl | rfl | rfl
  · obtain ⟨p, q, rfl⟩ : ∃ (p : Fin 512) (q : Fin 128), x = ix2 p q := ⟨x 0, x 1, eq_ix2 x⟩
    have hp := p.isLt
    have hq := q.isLt
    refine (piece_apply x0 x1 1536 inb_S2048x1024_S512x1024_1536_0 1024 128 slices_S512x1280_o0_1024_S512x128 p q (by omega) (by omega)).trans ?_
    refine congrArg₂ (projAt x0 x1) (Fin.ext ?_) (Fin.ext ?_)
    · show 1536 + p.val = 1536 + 1 * p.val; omega
    · show 1024 + q.val = 1024 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 1024 inb_S2048x1024_S512x1024_1024_0 1024 128 slices_S512x1280_o0_1024_S512x128 p q (by omega) (by omega)).trans ?_
    refine congrArg₂ (projAt x0 x1) (Fin.ext ?_) (Fin.ext ?_)
    · show 1024 + p.val = 1024 + 1 * p.val; omega
    · show 1024 + q.val = 1024 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 512 inb_S2048x1024_S512x1024_512_0 1024 128 slices_S512x1280_o0_1024_S512x128 p q (by omega) (by omega)).trans ?_
    refine congrArg₂ (projAt x0 x1) (Fin.ext ?_) (Fin.ext ?_)
    · show 512 + p.val = 512 + 1 * p.val; omega
    · show 1024 + q.val = 1024 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 0 inb_S2048x1024_S512x1024_0_0 1024 128 slices_S512x1280_o0_1024_S512x128 p q (by omega) (by omega)).trans ?_
    refine congrArg₂ (projAt x0 x1) (Fin.ext ?_) (Fin.ext ?_)
    · show 0 + p.val = 0 + 1 * p.val; omega
    · show 1024 + q.val = 1024 + (0 + 1 * q.val); omega

/-- Output 3's buffer after the body is that function of the two input blocks. -/
theorem out0_4_eq (x0 : Vec Ideal S2048x1024 .f32) (x1 : Vec Ideal S1024x1280 .bf16) :
    out0_4 (F := Ideal) x0 x1 = blkFn x0 x1 1152 128 (by omega) := by
  funext y
  unfold out0_4
  refine View.canon_apply_of_pieces (Val := Elt Ideal) (blkFn x0 x1 1152 128 (by omega)) _ (fun pc hpc x => ?_) y (cover_b _ _ _ _ y)
  simp only [List.mem_cons, List.mem_nil_iff, or_false] at hpc
  rcases hpc with rfl | rfl | rfl | rfl
  · obtain ⟨p, q, rfl⟩ : ∃ (p : Fin 512) (q : Fin 128), x = ix2 p q := ⟨x 0, x 1, eq_ix2 x⟩
    have hp := p.isLt
    have hq := q.isLt
    refine (piece_apply x0 x1 1536 inb_S2048x1024_S512x1024_1536_0 1152 128 slices_S512x1280_o0_1152_S512x128 p q (by omega) (by omega)).trans ?_
    refine congrArg₂ (projAt x0 x1) (Fin.ext ?_) (Fin.ext ?_)
    · show 1536 + p.val = 1536 + 1 * p.val; omega
    · show 1152 + q.val = 1152 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 1024 inb_S2048x1024_S512x1024_1024_0 1152 128 slices_S512x1280_o0_1152_S512x128 p q (by omega) (by omega)).trans ?_
    refine congrArg₂ (projAt x0 x1) (Fin.ext ?_) (Fin.ext ?_)
    · show 1024 + p.val = 1024 + 1 * p.val; omega
    · show 1152 + q.val = 1152 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 512 inb_S2048x1024_S512x1024_512_0 1152 128 slices_S512x1280_o0_1152_S512x128 p q (by omega) (by omega)).trans ?_
    refine congrArg₂ (projAt x0 x1) (Fin.ext ?_) (Fin.ext ?_)
    · show 512 + p.val = 512 + 1 * p.val; omega
    · show 1152 + q.val = 1152 + (0 + 1 * q.val); omega
  · obtain ⟨p, q, rfl⟩ : ∃ (p : Fin 512) (q : Fin 128), x = ix2 p q := ⟨x 0, x 1, eq_ix2 x⟩
    have hp := p.isLt
    have hq := q.isLt
    refine (piece_apply x0 x1 0 inb_S2048x1024_S512x1024_0_0 1152 128 slices_S512x1280_o0_1152_S512x128 p q (by omega) (by omega)).trans ?_
    refine congrArg₂ (projAt x0 x1) (Fin.ext ?_) (Fin.ext ?_)
    · show 0 + p.val = 0 + 1 * p.val; omega
    · show 1152 + q.val = 1152 + (0 + 1 * q.val); omega

end Cert.KernelIdeal.Around

end
-- ==== Proof.KernelIdealArrays.lean ====
/-
  The three output arrays after the run. Grid point t handles rows 2048 t .. 2048 t + 2047 of the flattened input and
  writes back the same rows of each output; the weight block is the whole weight matrix at every point. So each output
  array ends, entry (r, c), at row r of the flattened input, normalised, against column (offset + c) of the weight matrix.
-/
import proofs.«146387_j8203387535387_2_alg».proof.Proof.KernelIdealBlock

set_option maxRecDepth 16384

noncomputable section

open scoped BigOperators

namespace Cert.KernelIdeal.Around

open Cert.KernelIdeal Cert.KernelIdeal.Gen Cert.RmsProj
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Entry (r, c) of an output array of D columns starting at column o of the product. -/
def arrFn (A0 : S32768x1024.Idx → EReal) (A13 : S1024x1280.Idx → EReal) (o D : Nat) (hD : o + D ≤ 1280) :
    (⟨2, ![32768, D]⟩ : Shape).Idx → EReal := fun i =>
  projAt A0 A13 (⟨(i 0).val, (i 0).isLt⟩ : Fin 32768) (⟨o + (i 1).val, by have h : (i 1).val < D := (i 1).isLt; omega⟩ : Fin 1280)

/-- The block indices of the five windows at grid point t, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What grid point t writes back of output 1 is block t of one function of the two arrays the region reads. -/
theorem flushed2_eq (c : Dev nD) (t : Fin cfg0.N) :
    (dats m 0 c).flushed 2 t = ((cfg0.win 2).blk t).view.read (Elt Ideal) (arrFn (V m c main_v0) (V m c main_v13) 0 1024 (by omega)) := by
  show (cfg0.win 2).cut (grid0.coords t) ((dats m 0 c).after 2 t) = _
  rw [after0_2, out0_2_eq]
  obtain ⟨e00, e01, e10, e11, e20, e21, e30, e31, e40, e41⟩ := idx_facts t
  funext j
  show blkFn (iblk m c 0 t) (iblk m c 1 t) 0 1024 (by omega) j = arrFn (V m c main_v0) (V m c main_v13) 0 1024 (by omega) (((cfg0.win 2).blk t).view.emb j)
  have hj0 : (j 0).val < 2048 := (j 0).isLt
  have hj1 : (j 1).val < 1024 := (j 1).isLt
  refine projAt_congr (R := 32768) (R' := 2048) (V m c main_v0) (iblk m c 0 t) (V m c main_v13) (iblk m c 1 t) _ _ _ _ (fun k => ?_) (fun k => ?_)
  · show V m c main_v0 (((cfg0.win 0).blk t).view.emb (ix2 _ k)) = V m c main_v0 _
    refine congrArg (V m c main_v0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * k.val = k.val; omega
  · show V m c main_v13 (((cfg0.win 1).blk t).view.emb (ix2 k _)) = V m c main_v13 _
    refine congrArg (V m c main_v13) (funext fun a => Fin.ext ?_)
    match a with
    | ⟨0, _⟩ => show win0_1.index t (0 : Fin 2) * 1024 + 1 * k.val = k.val; omega
    | ⟨1, _⟩ => show win0_1.index t (1 : Fin 2) * 1280 + 1 * (0 + (j 1).val) = 0 + (win0_2.index t (1 : Fin 2) * 1024 + 1 * (j 1).val); omega

/-- An index of output 1's array is in point t's block iff each coordinate is in the block's range. -/
theorem mem_blk2 (t : Fin cfg0.N) (i : S32768x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v14_0).slice (win0_2.rect t)).set ↔ _
  rw [View.set_slice_whole, Rect.mem_set_unit]
  exact Iff.rfl

/-- The sixteen blocks of 2048 rows cover output 1's array. -/
theorem cover2 (i : S32768x1024.Idx) : ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, htv⟩ : ∃ t : Fin cfg0.N, t.val = (i 0).val / 2048 := ⟨⟨(i 0).val / 2048, by rw [show cfg0.N = 16 from N_0]; omega⟩, rfl⟩
  obtain ⟨e00, e01, e10, e11, e20, e21, e30, e31, e40, e41⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- Output 1's array after the run. -/
theorem final2 (c : Dev nD) : (dats m 0 c).arrAt 2 cfg0.N = arrFn (V m c main_v0) (V m c main_v13) 0 1024 (by omega) :=
  (dats m 0 c).arrAt_eq_of_cover 2 _ (fun t _ => flushed2_eq m c t) cover2

/-- What grid point t writes back of output 2 is block t of one function of the two arrays the region reads. -/
theorem flushed3_eq (c : Dev nD) (t : Fin cfg0.N) :
    (dats m 0 c).flushed 3 t = ((cfg0.win 3).blk t).view.read (Elt Ideal) (arrFn (V m c main_v0) (V m c main_v13) 1024 128 (by omega)) := by
  show (cfg0.win 3).cut (grid0.coords t) ((dats m 0 c).after 3 t) = _
  rw [after0_3, out0_3_eq]
  obtain ⟨e00, e01, e10, e11, e20, e21, e30, e31, e40, e41⟩ := idx_facts t
  funext j
  show blkFn (iblk m c 0 t) (iblk m c 1 t) 1024 128 (by omega) j = arrFn (V m c main_v0) (V m c main_v13) 1024 128 (by omega) (((cfg0.win 3).blk t).view.emb j)
  have hj0 : (j 0).val < 2048 := (j 0).isLt
  have hj1 : (j 1).val < 128 := (j 1).isLt
  refine projAt_congr (R := 32768) (R' := 2048) (V m c main_v0) (iblk m c 0 t) (V m c main_v13) (iblk m c 1 t) _ _ _ _ (fun k => ?_) (fun k => ?_)
  · show V m c main_v0 (((cfg0.win 0).blk t).view.emb (ix2 _ k)) = V m c main_v0 _
    refine congrArg (V m c main_v0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1024 + 1 * k.val = k.val; omega
  · show V m c main_v13 (((cfg0.win 1).blk t).view.emb (ix2 k _)) = V m c main_v13 _
    refine congrArg (V m c main_v13) (funext fun a => Fin.ext ?_)
    match a with
    | ⟨0, _⟩ => show win0_1.index t (0 : Fin 2) * 1024 + 1 * k.val = k.val; omega
    | ⟨1, _⟩ => show win0_1.index t (1 : Fin 2) * 1280 + 1 * (1024 + (j 1).val) = 1024 + (win0_3.index t (1 : Fin 2) * 128 + 1 * (j 1).val); omega

/-- An index of output 2's array is in point t's block iff each coordinate is in the block's range. -/
theorem mem_blk3 (t : Fin cfg0.N) (i : S32768x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v14_1).slice (win0_3.rect t)).set ↔ _
  rw [View.set_slice_whole, Rect.mem_set_unit]
  exact Iff.rfl

/-- The sixteen blocks of 2048 rows cover output 2's array. -/
theorem cover3 (i : S32768x128.Idx) : ∃ t : Fin cfg0.N, (cfg0.win 3).flush t = true ∧ i ∈ ((cfg0.win 3).blk t).view.set := by
  have hi0 : (i 0).val < 32768 := (i 0).isLt
  have hi1 : (i 1).val < 128 := (i 1).isLt
  obtain ⟨t, htv⟩ : ∃ t : Fin cfg0.N, t.val = (i 0).val / 2048 := ⟨⟨(i 0).val / 2048, by rw [show cfg0.N = 16 from N_0]; omega⟩, rfl⟩
  obtain ⟨e00, e01, e10, e11, e20, e21, e30, e31, e40, e41⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- Output 2's array after the run. -/
theorem final3 (c : Dev nD) : (dats m 0 c).arrAt 3 cfg0.N = arrFn (V m c main_v0) (V m c main_v13) 1024 128 (by omega) :=
  (dats m 0 c).arrAt_eq_of_cover 3 _ (fun t _ => flushed3_eq m c t) cover3

/-- What grid point t writes back of output 3 is block t of one function of the two arrays the region reads. -/
theorem flushed4_eq (c : Dev nD) (t : Fin cfg0.N) :
    (dats m 0 c).flushed 4 t = ((cfg0.win 4).blk t).view.read (Elt Ideal) (arrFn (V m c main_v0) (V m c main_v13) 1152 128 (by omega)) := by
  show (cfg0.win 4).cut (grid0.coords t) ((dats m 0 c).after 4 t) = _
  rw [after0_4, out0_4_eq]
  obtain ⟨e00, e01, e10, e11, e20, e21, e30, e31, e40, e41⟩ := idx_facts t
  funext j
  show blkFn (iblk m c 0 t) (iblk m c 1 t) 1152 128 (by omega) j = arrFn (V m c main_v0) (V m c main_v13) 1152 128 (by omega) (((cfg0.win 4).blk t).view.emb j)
  have hj0 : (j 0).val < 2048 := (j 0).isLt
  have hj1 : (j 1).val < 128 := (j 1).isLt
  refine projAt_congr (R := 32768) (R' := 2048) (V m c main_v0) (iblk m c 0 t) (V m c main_v13) (iblk m c 1 t) _ _ _ _ (fun k => ?_) (fun k => ?_)
  · show V m c main_v0 (((cfg0.win 0).blk t).view.emb (ix2 _ k)) = V m c main_v0 _
    refine congrArg (V m c main_v0) (funext fun a => Fin.ext ?_)
    match a with
    | ⟨0, _⟩ => show win0_0.index t (0 : Fin 2) * 2048 + 1 * (j 0).val = win0_4.index t (0 : Fin 2) * 2048 + 1 * (j 0).val; omega
    | ⟨1, _⟩ => show win0_0.index t (1 : Fin 2) * 1024 + 1 * k.val = k.val; omega
  · show V m c main_v13 (((cfg0.win 1).blk t).view.emb (ix2 k _)) = V m c main_v13 _
    refine congrArg (V m c main_v13) (funext fun a => Fin.ext ?_)
    match a with
    | ⟨0, _⟩ => show win0_1.index t (0 : Fin 2) * 1024 + 1 * k.val = k.val; omega
    | ⟨1, _⟩ => show win0_1.index t (1 : Fin 2) * 1280 + 1 * (1152 + (j 1).val) = 1152 + (win0_4.index t (1 : Fin 2) * 128 + 1 * (j 1).val); omega

/-- An index of output 3's array is in point t's block iff each coordinate is in the block's range. -/
theorem mem_blk4 (t : Fin cfg0.N) (i : S32768x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v14_2).slice (win0_4.rect t)).set ↔ _
  rw [View.set_slice_whole, Rect.mem_set_unit]
  exact Iff.rfl

/-- The sixteen blocks of 2048 rows cover output 3's array. -/
theorem cover4 (i : S32768x128.Idx) : ∃ t : Fin cfg0.N, (cfg0.win 4).flush t = true ∧ i ∈ ((cfg0.win 4).blk t).view.set := by
  have hi0 : (i 0).val < 32768 := (i 0).isLt
  have hi1 : (i 1).val < 128 := (i 1).isLt
  obtain ⟨t, htv⟩ : ∃ t : Fin cfg0.N, t.val = (i 0).val / 2048 := ⟨⟨(i 0).val / 2048, by rw [show cfg0.N = 16 from N_0]; omega⟩, rfl⟩
  obtain ⟨e00, e01, e10, e11, e20, e21, e30, e31, e40, e41⟩ := idx_facts t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- Output 3's array after the run. -/
theorem final4 (c : Dev nD) : (dats m 0 c).arrAt 4 cfg0.N = arrFn (V m c main_v0) (V m c main_v13) 1152 128 (by omega) :=
  (dats m 0 c).arrAt_eq_of_cover 4 _ (fun t _ => flushed4_eq m c t) cover4

end Cert.KernelIdeal.Around

end
-- ==== Proof.LibNary3.lean ====
/-
  A host operation over a literal family of three operands (a concatenation of three arrays): its result with each
  operand's contents at its own reference, so that the contents of the three operands can be read one by one.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over the three references `![x, a, b]` is its function of the three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for a rewriting pass that matches the result reference up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KernelIdealEntry.lean ====
/-
  The two arrays the region reads, as the host lines before it leave them. The first is the input with its two leading
  axes flattened. The second is the three weight matrices side by side, each entry (k, c) multiplied by (1 + ln k).
-/
import proofs.«146387_j8203387535387_2_alg».proof.Proof.KernelIdealAround
import proofs.«146387_j8203387535387_2_alg».proof.Proof.Spec
import proofs.«146387_j8203387535387_2_alg».proof.Proof.LibNary3
import Idealize.ShloMosaic.Lib.Pipeline.Value
import Idealize.ShloMosaic.Lib.StableHlo.Run

set_option maxRecDepth 16384

noncomputable section

open scoped BigOperators

namespace Cert.KernelIdeal.Around

open Cert.KernelIdeal Cert.KernelIdeal.Gen Cert.RmsProj
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The flattened input is the input reshaped. -/
theorem V_v0 (c : Dev nD) : (V m c main_v0 : S32768x1024.Idx → EReal)
    = shapeCast S32768x1024 (m ((c : Thread nD τ).loc main_arg0)) shapeCasts_S4x8192x1024_S32768x1024 := by
  show StableHlo.after hostOps0 (fun b => m (c, b)) (Proc.devRef .tc main_v0) = _
  after_results
  rfl

/-- A weight matrix with row k multiplied by (1 + ln k), as the host lines compute it (the change of float format is
    the identity on the extended reals). -/
def scaledBy {D : Nat} (hb : S1024x1.BroadcastsInDim ⟨2, ![1024, D]⟩ (![0, 1] : Fin 2 → Fin 2)) (ln : FVec Ideal S1024 .f32)
    (Wd : FVec Ideal ⟨2, ![1024, D]⟩ .f32) : FVec Ideal ⟨2, ![1024, D]⟩ .bf16 :=
  truncf .bf16 (mulf Wd (broadcastInDim ⟨2, ![1024, D]⟩ ![0, 1] hb (broadcastInDim S1024x1 ![0] bcast_S1024_S1024x1_0
    (addf (broadcastInDim S1024 ![] bcast_S_S1024 (constant S_ .f32 0x3F800000#32)) ln)))) bitsLt_bf16_f32

/-- The three scaled weight matrices, in the order they are laid side by side. -/
abbrev wparts (c : Dev nD) : List ((s : Shape) × (s.Idx → EReal)) :=
  [⟨S1024x1024, scaledBy bcast_S1024x1_S1024x1024_0_1 (m ((c : Thread nD τ).loc main_arg1)) (m ((c : Thread nD τ).loc main_arg2))⟩,
   ⟨S1024x128, scaledBy bcast_S1024x1_S1024x128_0_1 (m ((c : Thread nD τ).loc main_arg1)) (m ((c : Thread nD τ).loc main_arg3))⟩,
   ⟨S1024x128, scaledBy bcast_S1024x1_S1024x128_0_1 (m ((c : Thread nD τ).loc main_arg1)) (m ((c : Thread nD τ).loc main_arg4))⟩]

/-- The weight array is the three scaled matrices side by side. -/
theorem V_v13 (c : Dev nD) : (V m c main_v13 : S1024x1280.Idx → EReal)
    = concatenate S1024x1280 1 (wparts m c) concatenates_S1024x1024_S1024x128_S1024x128_S1024x1280_d1 := by
  show StableHlo.after hostOps0 (fun b => m (c, b)) (Proc.devRef .tc main_v13) = _
  simp (disch := decide) only [after_cons, after_nil, nullary_result', unary_result', binary_result', reshape_result', nary3_result',
    nullary_result_ne', unary_result_ne', binary_result_ne', reshape_result_ne', nary_result_ne']
  rfl

/-- A scaled matrix at (k, q). -/
theorem scaledBy_apply {D : Nat} (hb : S1024x1.BroadcastsInDim ⟨2, ![1024, D]⟩ (![0, 1] : Fin 2 → Fin 2)) (ln : FVec Ideal S1024 .f32)
    (Wd : FVec Ideal ⟨2, ![1024, D]⟩ .f32) (k : Fin 1024) (q : Fin D) :
    scaledBy hb ln Wd (ix2 k q) = Wd (ix2 k q) * gain (fun k => ln (ix1 k)) k := by
  show Wd (ix2 k q) * broadcastInDim (s := S1024x1) ⟨2, ![1024, D]⟩ ![0, 1] hb _ (ix2 k q) = _
  refine congrArg (fun z => Wd (ix2 k q) * z) ?_
  refine (broadcastInDim_apply (![0, 1] : Fin 2 → Fin 2) hb _ (ix2 k q) (ix2 k (0 : Fin 1)) (fun a => ?_)).trans ?_
  · match a with
    | ⟨0, _⟩ => show k.val = if (1024 : Nat) = 1 then 0 else k.val; rw [if_neg (by decide)]
    | ⟨1, _⟩ => show 0 = if (1 : Nat) = 1 then 0 else q.val; rw [if_pos rfl]
  refine (broadcastInDim_apply (![0] : Fin 1 → Fin 2) bcast_S1024_S1024x1_0 _ (ix2 k (0 : Fin 1)) (ix1 k) (fun a => ?_)).trans ?_
  · match a with
    | ⟨0, _⟩ => show k.val = if (1024 : Nat) = 1 then 0 else k.val; rw [if_neg (by decide)]
  show broadcastInDim (s := S_) S1024 ![] bcast_S_S1024 (constant S_ .f32 0x3F800000#32) (ix1 k) + ln (ix1 k) = _
  refine congrArg (fun z => z + ln (ix1 k)) ?_
  exact broadcastInDim_apply (![] : Fin 0 → Fin 1) bcast_S_S1024 _ (ix1 k) ix0 (fun a => a.elim0)

end Cert.KernelIdeal.Around

end
-- ==== Proof.KernelIdealResult.lean ====
/-
  The three results of the kernel program. After the region each output array is reshaped, so result entry (b, s, h, d)
  is entry (8192 b + s, 64 h + d) of its output array: token (b, s) of the input, normalised by its own scale, against
  column 64 h + d of the weight matrix whose row k was multiplied by (1 + ln k).
-/
import proofs.«146387_j8203387535387_2_alg».proof.Proof.KernelIdealArrays
import proofs.«146387_j8203387535387_2_alg».proof.Proof.KernelIdealEntry
import Idealize.ShloMosaic.Lib.StableHlo.Run

set_option maxRecDepth 16384

noncomputable section

open scoped BigOperators

namespace Cert.KernelIdeal.Around

open Cert.KernelIdeal Cert.KernelIdeal.Gen Cert.RmsProj
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The result buffer v15 after the host lines that follow the region: the output array reshaped. -/
theorem tail_v15 (c : Dev nD) : Pipeline.afterTail₀ cfgs (dats m) 0 (V0 m) [hostOps1] c main_v15
    = shapeCast S4x8192x16x64 ((dats m 0 c).arrAt 2 cfg0.N) shapeCasts_S32768x1024_S4x8192x16x64 := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v14_0) = (dats m 0 c).arrAt 2 cfg0.N from
    Pipeline.withArrays_arr spec0 launch0.win.arr_inj c _ _ 2]
  rfl

/-- The result buffer v16 after the host lines that follow the region: the output array reshaped. -/
theorem tail_v16 (c : Dev nD) : Pipeline.afterTail₀ cfgs (dats m) 0 (V0 m) [hostOps1] c main_v16
    = shapeCast S4x8192x2x64 ((dats m 0 c).arrAt 3 cfg0.N) shapeCasts_S32768x128_S4x8192x2x64 := by
  unfold Pipeline.afterTail₀
  show StableHlo.after hostOps1 _ (Proc.devRef .tc main_v16) = _
  after_results
  rw [show Pipeline.withArrays (cfgs 0).spec c (V0 m c) (fun w => (dats m 0 c).arrAt w (cfgs 0).N) (Proc.devRef .tc main_v14_1) = (dats m 0 c).arrAt 3 cfg0.N from
    Pipeline.withArrays_arr spec0 launch0.win.arr_inj c _ _ 3]
  rfl

/-- The result buffer v17 after the host lines that follow the region: the output array reshaped. -/
theorem tail_v17 (c : Dev nD) : Pipeline.afterTail₀ cfgs (dats m) 0 (V0 m) [hostOps1] c main_v17
    = shapeCast S4x8192x2x64 ((dats m 0 c).arrAt 4 cfg0.N) shapeCasts_S32768x128_S4x8192x2x64 := by
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.devRef .tc main_v14_2) = (dats m 0 c).arrAt 4 cfg0.N from
    Pipeline.withArrays_arr spec0 launch0.win.arr_inj c _ _ 4]
  rfl

/-- Result v15, entry (b, s, h, d): token (b, s) of the input, normalised, against column 64 h + d of the scaled weight. -/
theorem value_v15 (c : Dev nD) :
    shapeCast S4x8192x16x64 (arrFn (V m c main_v0) (V m c main_v13) 0 1024 (by omega)) shapeCasts_S32768x1024_S4x8192x16x64
      = result 16 1024 rfl (m ((c : Thread nD τ).loc main_arg0)) (m ((c : Thread nD τ).loc main_arg1)) (m ((c : Thread nD τ).loc main_arg2)) := by
  funext i
  have h0 : (i 0).val < 4 := (i 0).isLt
  have h1 : (i 1).val < 8192 := (i 1).isLt
  have h2 : (i 2).val < 16 := (i 2).isLt
  have h3 : (i 3).val < 64 := (i 3).isLt
  refine (shapeCast_apply _ shapeCasts_S32768x1024_S4x8192x16x64 i
    (ix2 (⟨(i 0).val * 8192 + (i 1).val, by omega⟩ : Fin 32768) (⟨(i 2).val * 64 + (i 3).val, by omega⟩ : Fin 1024)) ?_).trans ?_
  · rw [Shape.rowMajor_val_two, Shape.rowMajor_val_four]
    show ((i 0).val * 8192 + (i 1).val) * 1024 + ((i 2).val * 64 + (i 3).val) = (((i 0).val * 8192 + (i 1).val) * 16 + (i 2).val) * 64 + (i 3).val
    omega
  refine projAt_eq_entry (R := 32768) (V m c main_v0) (V m c main_v13) _ _ _ _ _ (fun k => ?_) (fun k => ?_)
  · rw [V_v0]
    refine shapeCast_apply _ shapeCasts_S4x8192x1024_S32768x1024 _ (ix3 (⟨(i 0).val, h0⟩ : Fin 4) (⟨(i 1).val, h1⟩ : Fin 8192) k) ?_
    rw [Shape.rowMajor_val_three, Shape.rowMajor_val_two]
    rfl
  · rw [V_v13]
    refine (concatenate_apply_piece (t := S1024x1280) (1 : Fin 2) (wparts m c) concatenates_S1024x1024_S1024x128_S1024x128_S1024x1280_d1 _ 0 (show 0 < 3 by omega) S1024x1024 _ rfl rfl 0 rfl
      (ix2 k (⟨(i 2).val * 64 + (i 3).val, by omega⟩ : Fin 1024)) (fun b hb => ?_) ?_).trans (scaledBy_apply bcast_S1024x1_S1024x1024_0_1 _ _ k _)
    · match b with
      | ⟨0, _⟩ => rfl
      | ⟨1, _⟩ => exact absurd rfl hb
    · show 0 + ((i 2).val * 64 + (i 3).val) = 0 + ((i 2).val * 64 + (i 3).val)
      rfl

/-- Result v16, entry (b, s, h, d): token (b, s) of the input, normalised, against column 64 h + d of the scaled weight. -/
theorem value_v16 (c : Dev nD) :
    shapeCast S4x8192x2x64 (arrFn (V m c main_v0) (V m c main_v13) 1024 128 (by omega)) shapeCasts_S32768x128_S4x8192x2x64
      = result 2 128 rfl (m ((c : Thread nD τ).loc main_arg0)) (m ((c : Thread nD τ).loc main_arg1)) (m ((c : Thread nD τ).loc main_arg3)) := by
  funext i
  have h0 : (i 0).val < 4 := (i 0).isLt
  have h1 : (i 1).val < 8192 := (i 1).isLt
  have h2 : (i 2).val < 2 := (i 2).isLt
  have h3 : (i 3).val < 64 := (i 3).isLt
  refine (shapeCast_apply _ shapeCasts_S32768x128_S4x8192x2x64 i
    (ix2 (⟨(i 0).val * 8192 + (i 1).val, by omega⟩ : Fin 32768) (⟨(i 2).val * 64 + (i 3).val, by omega⟩ : Fin 128)) ?_).trans ?_
  · rw [Shape.rowMajor_val_two, Shape.rowMajor_val_four]
    show ((i 0).val * 8192 + (i 1).val) * 128 + ((i 2).val * 64 + (i 3).val) = (((i 0).val * 8192 + (i 1).val) * 2 + (i 2).val) * 64 + (i 3).val
    omega
  refine projAt_eq_entry (R := 32768) (V m c main_v0) (V m c main_v13) _ _ _ _ _ (fun k => ?_) (fun k => ?_)
  · rw [V_v0]
    refine shapeCast_apply _ shapeCasts_S4x8192x1024_S32768x1024 _ (ix3 (⟨(i 0).val, h0⟩ : Fin 4) (⟨(i 1).val, h1⟩ : Fin 8192) k) ?_
    rw [Shape.rowMajor_val_three, Shape.rowMajor_val_two]
    rfl
  · rw [V_v13]
    refine (concatenate_apply_piece (t := S1024x1280) (1 : Fin 2) (wparts m c) concatenates_S1024x1024_S1024x128_S1024x128_S1024x1280_d1 _ 1 (show 1 < 3 by omega) S1024x128 _ rfl rfl 1024 rfl
      (ix2 k (⟨(i 2).val * 64 + (i 3).val, by omega⟩ : Fin 128)) (fun b hb => ?_) ?_).trans (scaledBy_apply bcast_S1024x1_S1024x128_0_1 _ _ k _)
    · match b with
      | ⟨0, _⟩ => rfl
      | ⟨1, _⟩ => exact absurd rfl hb
    · show 1024 + ((i 2).val * 64 + (i 3).val) = 1024 + ((i 2).val * 64 + (i 3).val)
      rfl

/-- Result v17, entry (b, s, h, d): token (b, s) of the input, normalised, against column 64 h + d of the scaled weight. -/
theorem value_v17 (c : Dev nD) :
    shapeCast S4x8192x2x64 (arrFn (V m c main_v0) (V m c main_v13) 1152 128 (by omega)) shapeCasts_S32768x128_S4x8192x2x64
      = result 2 128 rfl (m ((c : Thread nD τ).loc main_arg0)) (m ((c : Thread nD τ).loc main_arg1)) (m ((c : Thread nD τ).loc main_arg4)) := by
  funext i
  have h0 : (i 0).val < 4 := (i 0).isLt
  have h1 : (i 1).val < 8192 := (i 1).isLt
  have h2 : (i 2).val < 2 := (i 2).isLt
  have h3 : (i 3).val < 64 := (i 3).isLt
  refine (shapeCast_apply _ shapeCasts_S32768x128_S4x8192x2x64 i
    (ix2 (⟨(i 0).val * 8192 + (i 1).val, by omega⟩ : Fin 32768) (⟨(i 2).val * 64 + (i 3).val, by omega⟩ : Fin 128)) ?_).trans ?_
  · rw [Shape.rowMajor_val_two, Shape.rowMajor_val_four]
    show ((i 0).val * 8192 + (i 1).val) * 128 + ((i 2).val * 64 + (i 3).val) = (((i 0).val * 8192 + (i 1).val) * 2 + (i 2).val) * 64 + (i 3).val
    omega
  refine projAt_eq_entry (R := 32768) (V m c main_v0) (V m c main_v13) _ _ _ _ _ (fun k => ?_) (fun k => ?_)
  · rw [V_v0]
    refine shapeCast_apply _ shapeCasts_S4x8192x1024_S32768x1024 _ (ix3 (⟨(i 0).val, h0⟩ : Fin 4) (⟨(i 1).val, h1⟩ : Fin 8192) k) ?_
    rw [Shape.rowMajor_val_three, Shape.rowMajor_val_two]
    rfl
  · rw [V_v13]
    refine (concatenate_apply_piece (t := S1024x1280) (1 : Fin 2) (wparts m c) concatenates_S1024x1024_S1024x128_S1024x128_S1024x1280_d1 _ 2 (show 2 < 3 by omega) S1024x128 _ rfl rfl 1152 rfl
      (ix2 k (⟨(i 2).val * 64 + (i 3).val, by omega⟩ : Fin 128)) (fun b hb => ?_) ?_).trans (scaledBy_apply bcast_S1024x1_S1024x128_0_1 _ _ k _)
    · match b with
      | ⟨0, _⟩ => rfl
      | ⟨1, _⟩ => exact absurd rfl hb
    · show 1152 + ((i 2).val * 64 + (i 3).val) = 1152 + ((i 2).val * 64 + (i 3).val)
      rfl

/-- The run of the kernel program with its three results named. -/
theorem run : θ_run defs (onTc (τ := τ) (main (F := Ideal))) ⟨m, fun _ => 0, ρ⟩ (fun r => ∀ c : Dev nD,
      r.2.mem ((c.tc : Thread nD τ).loc main_v15) = result 16 1024 rfl (m ((c : Thread nD τ).loc main_arg0)) (m ((c : Thread nD τ).loc main_arg1)) (m ((c : Thread nD τ).loc main_arg2))
      ∧ r.2.mem ((c.tc : Thread nD τ).loc main_v16) = result 2 128 rfl (m ((c : Thread nD τ).loc main_arg0)) (m ((c : Thread nD τ).loc main_arg1)) (m ((c : Thread nD τ).loc main_arg3))
      ∧ r.2.mem ((c.tc : Thread nD τ).loc main_v17) = result 2 128 rfl (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(((h c).2 main_v15 (Pipeline.mem_restRefs_of main_v15 (by decide) (by decide))).trans (tail_v15 m c)).trans
        ((congrArg (fun A => shapeCast S4x8192x16x64 A shapeCasts_S32768x1024_S4x8192x16x64) (final2 m c)).trans (value_v15 m c)),
     (((h c).2 main_v16 (Pipeline.mem_restRefs_of main_v16 (by decide) (by decide))).trans (tail_v16 m c)).trans
        ((congrArg (fun A => shapeCast S4x8192x2x64 A shapeCasts_S32768x128_S4x8192x2x64) (final3 m c)).trans (value_v16 m c)),
     (((h c).2 main_v17 (Pipeline.mem_restRefs_of main_v17 (by decide) (by decide))).trans (tail_v17 m c)).trans
        ((congrArg (fun A => shapeCast S4x8192x2x64 A shapeCasts_S32768x128_S4x8192x2x64) (final4 m c)).trans (value_v17 m c)),
     kept m c r h⟩) (run_main m ρ)

end Cert.KernelIdeal.Around

end
-- ==== Proof.RefValue.lean ====
/-
  The reference at an index. Its normalised token entry (b, s, k) is the input entry times the scale of token (b, s) times
  (1 + ln k); each result entry (b, s, h, d) is the sum over k of that against the weight entry (k, 64 h + d).
-/
import proofs.«146387_j8203387535387_2_alg».proof.Proof.Gen.ReferenceIdeal.Read
import proofs.«146387_j8203387535387_2_alg».proof.Proof.Spec

noncomputable section

open scoped BigOperators

namespace Cert.ReferenceIdeal.RefValue

open Cert.ReferenceIdeal Cert.ReferenceIdeal.Gen Cert.RmsProj
open Idealize.ShloMosaic Idealize.ShloMosaic.ValueIdx

/-- The scale the reference computes for token (b, s), read at any index of the keepdims column that names that token. -/
theorem scale_apply (x0 : (⟨S4x8192x1024, .f32⟩ : BufTy).Contents (Elt Ideal)) (b : Fin 4) (s : Fin 8192) (j : S4x8192x1.Idx)
    (hj0 : (j 0).val = b.val) (hj1 : (j 1).val = s.val) :
    Read.val_main_v7 (F := Ideal) x0 j = invRms (fun k => x0 (ix3 b s k)) := by
  rw [Read.val_main_v7_apply, Read.val_main_v6_apply, Read.val_main_v4_apply, Read.val_main_v2_apply, Read.val_main_v1_apply,
    Read.val_main_v3_apply, Read.val_main_v5_apply, Read.val_main_cst_0_apply, Read.val_main_cst_1_apply, Read.val_main_cst_apply]
  simp only [Ideal.hostUnary_rsqrt_def, Ideal.addf_def, Ideal.hostDivf_def, Ideal.ofBits_def, Ideal.ofBits_zero_f32, zero_add]
  unfold invRms
  refine congrArg (fun z => Ideal.rsqrt (Ideal.div z (Ideal.ofBits .f32 0x44800000#32) + Ideal.ofBits .f32 0x358637BD#32)) ?_
  refine Finset.sum_congr rfl fun k _ => ?_
  rw [Read.val_main_v0_apply]
  have e : Read.idx_main_v1 (Read.idx_main_v2 j) k = ix3 b s k :=
    funext fun a => Fin.ext (by match a with | ⟨0, _⟩ => exact hj0 | ⟨1, _⟩ => exact hj1 | ⟨2, _⟩ => rfl)
  rw [e]
  rfl

/-- The reference's normalised and scaled token entry (b, s, k). -/
theorem token_apply (x0 : (⟨S4x8192x1024, .f32⟩ : BufTy).Contents (Elt Ideal)) (x1 : (⟨S1024, .f32⟩ : BufTy).Contents (Elt Ideal))
    (b : Fin 4) (s : Fin 8192) (k : Fin 1024) :
    Read.val_main_v14 (F := Ideal) x0 x1 (ix3 b s k)
      = (x0 (ix3 b s k) * invRms (fun k => x0 (ix3 b s k))) * gain (fun k => x1 (ix1 k)) k := by
  rw [Read.val_main_v14_apply, Read.val_main_v9_apply, Read.val_main_v8_apply, scale_apply x0 b s _ rfl rfl,
    Read.val_main_v13_apply, Read.val_main_v12_apply, Read.val_main_v11_apply, Read.val_main_v10_apply, Read.val_main_cst_2_apply]
  simp only [Ideal.mulf_def, Ideal.addf_def, Ideal.ofBits_def]
  have e : Read.idx_main_v12 (Read.idx_main_v13 (ix3 b s k)) = ix1 k :=
    funext fun a => Fin.ext (by match a with | ⟨0, _⟩ => rfl)
  rw [e]
  rfl

/-- The reference's result v18 is the projection of the normalised, scaled tokens. -/
theorem ref_v18 (x0 : (⟨S4x8192x1024, .f32⟩ : BufTy).Contents (Elt Ideal)) (x1 : (⟨S1024, .f32⟩ : BufTy).Contents (Elt Ideal))
    (x2 : (⟨S1024x1024, .f32⟩ : BufTy).Contents (Elt Ideal)) :
    Read.val_main_v18 (F := Ideal) x0 x1 x2 = result 16 1024 rfl x0 x1 x2 := by
  funext i
  have h0 : (i 0).val < 4 := (i 0).isLt
  have h1 : (i 1).val < 8192 := (i 1).isLt
  have h2 : (i 2).val < 16 := (i 2).isLt
  have h3 : (i 3).val < 64 := (i 3).isLt
  rw [Read.val_main_v18_apply, Read.val_main_v15_apply]
  have eI : Read.idx_main_v18 i = ix3 (⟨(i 0).val, h0⟩ : Fin 4) (⟨(i 1).val, h1⟩ : Fin 8192) (⟨(i 2).val * 64 + (i 3).val, by omega⟩ : Fin 1024) :=
    funext fun a => Fin.ext (by
      match a with
      | ⟨0, _⟩ => show ((((i 0).val * 8192 + (i 1).val) * 16 + (i 2).val) * 64 + (i 3).val) / 8388608 = (i 0).val; omega
      | ⟨1, _⟩ => show ((((i 0).val * 8192 + (i 1).val) * 16 + (i 2).val) * 64 + (i 3).val) / 1024 % 8192 = (i 1).val; omega
      | ⟨2, _⟩ => show ((((i 0).val * 8192 + (i 1).val) * 16 + (i 2).val) * 64 + (i 3).val) % 1024 = (i 2).val * 64 + (i 3).val; omega)
  rw [eI]
  refine (Finset.sum_congr rfl fun k _ => ?_).trans (entry_eq _ _ _)
  have eL : Read.lidx_main_v15 (ix3 (⟨(i 0).val, h0⟩ : Fin 4) (⟨(i 1).val, h1⟩ : Fin 8192) (⟨(i 2).val * 64 + (i 3).val, by omega⟩ : Fin 1024)) k
      = ix3 (⟨(i 0).val, h0⟩ : Fin 4) (⟨(i 1).val, h1⟩ : Fin 8192) k :=
    funext fun a => Fin.ext (by match a with | ⟨0, _⟩ => rfl | ⟨1, _⟩ => rfl | ⟨2, _⟩ => rfl)
  have eR : Read.ridx_main_v15 (ix3 (⟨(i 0).val, h0⟩ : Fin 4) (⟨(i 1).val, h1⟩ : Fin 8192) (⟨(i 2).val * 64 + (i 3).val, by omega⟩ : Fin 1024)) k
      = ix2 k (⟨(i 2).val * 64 + (i 3).val, by omega⟩ : Fin 1024) :=
    funext fun a => Fin.ext (by match a with | ⟨0, _⟩ => rfl | ⟨1, _⟩ => rfl)
  rw [eL, eR, token_apply]

/-- The reference's result v19 is the projection of the normalised, scaled tokens. -/
theorem ref_v19 (x0 : (⟨S4x8192x1024, .f32⟩ : BufTy).Contents (Elt Ideal)) (x1 : (⟨S1024, .f32⟩ : BufTy).Contents (Elt Ideal))
    (x2 : (⟨S1024x128, .f32⟩ : BufTy).Contents (Elt Ideal)) :
    Read.val_main_v19 (F := Ideal) x0 x1 x2 = result 2 128 rfl x0 x1 x2 := by
  funext i
  have h0 : (i 0).val < 4 := (i 0).isLt
  have h1 : (i 1).val < 8192 := (i 1).isLt
  have h2 : (i 2).val < 2 := (i 2).isLt
  have h3 : (i 3).val < 64 := (i 3).isLt
  rw [Read.val_main_v19_apply, Read.val_main_v16_apply]
  have eI : Read.idx_main_v19 i = ix3 (⟨(i 0).val, h0⟩ : Fin 4) (⟨(i 1).val, h1⟩ : Fin 8192) (⟨(i 2).val * 64 + (i 3).val, by omega⟩ : Fin 128) :=
    funext fun a => Fin.ext (by
      match a with
      | ⟨0, _⟩ => show ((((i 0).val * 8192 + (i 1).val) * 2 + (i 2).val) * 64 + (i 3).val) / 1048576 = (i 0).val; omega
      | ⟨1, _⟩ => show ((((i 0).val * 8192 + (i 1).val) * 2 + (i 2).val) * 64 + (i 3).val) / 128 % 8192 = (i 1).val; omega
      | ⟨2, _⟩ => show ((((i 0).val * 8192 + (i 1).val) * 2 + (i 2).val) * 64 + (i 3).val) % 128 = (i 2).val * 64 + (i 3).val; omega)
  rw [eI]
  refine (Finset.sum_congr rfl fun k _ => ?_).trans (entry_eq _ _ _)
  have eL : Read.lidx_main_v16 (ix3 (⟨(i 0).val, h0⟩ : Fin 4) (⟨(i 1).val, h1⟩ : Fin 8192) (⟨(i 2).val * 64 + (i 3).val, by omega⟩ : Fin 128)) k
      = ix3 (⟨(i 0).val, h0⟩ : Fin 4) (⟨(i 1).val, h1⟩ : Fin 8192) k :=
    funext fun a => Fin.ext (by match a with | ⟨0, _⟩ => rfl | ⟨1, _⟩ => rfl | ⟨2, _⟩ => rfl)
  have eR : Read.ridx_main_v16 (ix3 (⟨(i 0).val, h0⟩ : Fin 4) (⟨(i 1).val, h1⟩ : Fin 8192) (⟨(i 2).val * 64 + (i 3).val, by omega⟩ : Fin 128)) k
      = ix2 k (⟨(i 2).val * 64 + (i 3).val, by omega⟩ : Fin 128) :=
    funext fun a => Fin.ext (by match a with | ⟨0, _⟩ => rfl | ⟨1, _⟩ => rfl)
  rw [eL, eR, token_apply]

/-- The reference's result v20 is the projection of the normalised, scaled tokens. -/
theorem ref_v20 (x0 : (⟨S4x8192x1024, .f32⟩ : BufTy).Contents (Elt Ideal)) (x1 : (⟨S1024, .f32⟩ : BufTy).Contents (Elt Ideal))
    (x2 : (⟨S1024x128, .f32⟩ : BufTy).Contents (Elt Ideal)) :
    Read.val_main_v20 (F := Ideal) x0 x1 x2 = result 2 128 rfl x0 x1 x2 := by
  funext i
  have h0 : (i 0).val < 4 := (i 0).isLt
  have h1 : (i 1).val < 8192 := (i 1).isLt
  have h2 : (i 2).val < 2 := (i 2).isLt
  have h3 : (i 3).val < 64 := (i 3).isLt
  rw [Read.val_main_v20_apply, Read.val_main_v17_apply]
  have eI : Read.idx_main_v20 i = ix3 (⟨(i 0).val, h0⟩ : Fin 4) (⟨(i 1).val, h1⟩ : Fin 8192) (⟨(i 2).val * 64 + (i 3).val, by omega⟩ : Fin 128) :=
    funext fun a => Fin.ext (by
      match a with
      | ⟨0, _⟩ => show ((((i 0).val * 8192 + (i 1).val) * 2 + (i 2).val) * 64 + (i 3).val) / 1048576 = (i 0).val; omega
      | ⟨1, _⟩ => show ((((i 0).val * 8192 + (i 1).val) * 2 + (i 2).val) * 64 + (i 3).val) / 128 % 8192 = (i 1).val; omega
      | ⟨2, _⟩ => show ((((i 0).val * 8192 + (i 1).val) * 2 + (i 2).val) * 64 + (i 3).val) % 128 = (i 2).val * 64 + (i 3).val; omega)
  rw [eI]
  refine (Finset.sum_congr rfl fun k _ => ?_).trans (entry_eq _ _ _)
  have eL : Read.lidx_main_v17 (ix3 (⟨(i 0).val, h0⟩ : Fin 4) (⟨(i 1).val, h1⟩ : Fin 8192) (⟨(i 2).val * 64 + (i 3).val, by omega⟩ : Fin 128)) k
      = ix3 (⟨(i 0).val, h0⟩ : Fin 4) (⟨(i 1).val, h1⟩ : Fin 8192) k :=
    funext fun a => Fin.ext (by match a with | ⟨0, _⟩ => rfl | ⟨1, _⟩ => rfl | ⟨2, _⟩ => rfl)
  have eR : Read.ridx_main_v17 (ix3 (⟨(i 0).val, h0⟩ : Fin 4) (⟨(i 1).val, h1⟩ : Fin 8192) (⟨(i 2).val * 64 + (i 3).val, by omega⟩ : Fin 128)) k
      = ix2 k (⟨(i 2).val * 64 + (i 3).val, by omega⟩ : Fin 128) :=
    funext fun a => Fin.ext (by match a with | ⟨0, _⟩ => rfl | ⟨1, _⟩ => rfl)
  rw [eL, eR, token_apply]

end Cert.ReferenceIdeal.RefValue

end
-- ==== Proof.lean ====
/-
  The certificate's claim. Both programs compute, for every token (b, s) and every output column, the sum over k of
  the token's entry k, times the token's reciprocal root mean square, times (1 + ln k), times the weight entry: the
  kernel with (1 + ln k) multiplied into the weights before the product, the reference with it multiplied into the
  normalised token. Over the extended reals multiplication is commutative and associative at all values, so the two
  sums agree term by term and the precondition is not used. The three frames: each program runs to its end without a
  fault and leaves its five argument arrays as launched. The idealized kernel is the kernel's own text read at the
  extended reals, so there is nothing to preserve.
-/
import proofs.«146387_j8203387535387_2_alg».proof.Defs
import proofs.«146387_j8203387535387_2_alg».proof.Proof.Gen.Kernel
import proofs.«146387_j8203387535387_2_alg».proof.Proof.Gen.KernelIdeal
import proofs.«146387_j8203387535387_2_alg».proof.Proof.Gen.ReferenceIdeal
import proofs.«146387_j8203387535387_2_alg».proof.Proof.Gen.Pre_finite_inputs
import proofs.«146387_j8203387535387_2_alg».proof.Proof.Gen.ReferenceIdeal.Run
import proofs.«146387_j8203387535387_2_alg».proof.Proof.Gen.ReferenceIdeal.Read
import proofs.«146387_j8203387535387_2_alg».proof.Proof.KernelFrame
import proofs.«146387_j8203387535387_2_alg».proof.Proof.KernelIdealResult
import proofs.«146387_j8203387535387_2_alg».proof.Proof.RefValue
import Idealize.ShloMosaic.Adequacy
import Idealize.ShloMosaic.Init

noncomputable section

namespace Cert.Proof

open Idealize.ShloMosaic Idealize.SL.Sem Cert.RmsProj

/-- The kernel as printed runs to its end and keeps its arguments. -/
theorem frame_kernel : Cert.frame_Kernel := fun m ρ _ => Cert.Kernel.Around.frame m ρ

/-- So does the kernel read at the extended reals. -/
theorem frame_kernelIdeal : Cert.frame_KernelIdeal := fun m ρ _ => Cert.KernelIdeal.Around.frame m ρ

/-- So does the reference: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The two programs, run from memories agreeing on the arguments, end with equal results. -/
theorem algebraic : Cert.algebraic_KernelIdeal_ReferenceIdeal := by
  intro m ρ m' ρ' _ hagree
  refine ⟨fun c => result 16 1024 rfl (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => result 2 128 rfl (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => result 2 128 rfl (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)),
    Cert.KernelIdeal.Around.run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans (((Cert.ReferenceIdeal.Read.val_main_v18_eq _ _ _).trans (Cert.ReferenceIdeal.RefValue.ref_v18 _ _ _)).trans ?_)
    rw [(hagree c).1, (hagree c).2.1, (hagree c).2.2.1]
  · refine (h c).2.1.trans (((Cert.ReferenceIdeal.Read.val_main_v19_eq _ _ _).trans (Cert.ReferenceIdeal.RefValue.ref_v19 _ _ _)).trans ?_)
    rw [(hagree c).1, (hagree c).2.1, (hagree c).2.2.2.1]
  · refine (h c).2.2.1.trans (((Cert.ReferenceIdeal.Read.val_main_v20_eq _ _ _).trans (Cert.ReferenceIdeal.RefValue.ref_v20 _ _ _)).trans ?_)
    rw [(hagree c).1, (hagree c).2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
